-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S16384x1024 .f32) (main_arg1 : FVec F S2048x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S16384x1024 : Shape := ⟨2, ![16384, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x1 : Shape := ⟨2, ![2048, 1]⟩
abbrev S16384x2048 : Shape := ⟨2, ![16384, 2048]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S16384x1_S16384x1024_0_1 : S16384x1.BroadcastsInDim S16384x1024 (![0, 1] : Fin 2 → Fin S16384x1024.rank)
  bitsLt_bf16_f32 : FTy.bits .bf16 < FTy.bits .f32
  bcast_S2048x1_S2048x1024_0_1 : S2048x1.BroadcastsInDim S2048x1024 (![0, 1] : Fin 2 → Fin S2048x1024.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x1024.size a
  hwx0_1 : ∀ i : grid0.Coords, EltTy.bits .bf16 = 32 ∨ (Rect.block (s := S2048x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x2048.size a
  hwx0_2 : ∀ i : grid0.Coords, EltTy.bits .f32 = 32 ∨ (Rect.block (s := S16384x2048) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v8) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x1 : Shape := ⟨2, ![2048, 1]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S16384x1024, .f32⟩
  | .hbm, ⟨19, _⟩ => ⟨S16384x1024, .f32⟩
  | .hbm, ⟨20, _⟩ => ⟨S2048x1024, .f32⟩
  | .hbm, ⟨21, _⟩ => ⟨S2048x1024, .f32⟩
  | .hbm, ⟨22, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S16384x1_S16384x1024_0_1 : S16384x1.BroadcastsInDim S16384x1024 (![0, 1] : Fin 2 → Fin S16384x1024.rank)
  bcast_S2048x1_S2048x1024_0_1 : S2048x1.BroadcastsInDim S2048x1024 (![0, 1] : Fin 2 → Fin S2048x1024.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.PairDots.lean ====
/-
  The result both programs compute, as one function of two matrices.

  For a matrix `x` of 16384 rows and a matrix `a` of 2048 rows, both with 1024 columns, `pairDots x a` is the
  16384 × 2048 matrix of all pairwise dot products of their rows, over the extended reals:
  entry (b, c) is the sum over the 1024 columns d of x[b, d] · a[c, d]. Addition of extended reals is commutative and
  associative, so this finite sum needs no order and no finiteness of the entries.
-/
import Idealize.ShloMosaic.PureOps.Ideal
import Idealize.ShloMosaic.Lib.ValueIdx

noncomputable section

open scoped BigOperators

namespace Cert.Cosine

open Idealize.ShloMosaic Idealize.ShloMosaic.ValueIdx

/-- All pairwise dot products of the rows of `x` with the rows of `a`. -/
def pairDots (x : (⟨2, ![16384, 1024]⟩ : Shape).Idx → EReal) (a : (⟨2, ![2048, 1024]⟩ : Shape).Idx → EReal) :
    (⟨2, ![16384, 2048]⟩ : Shape).Idx → EReal :=
  fun i => ∑ d : Fin 1024, x (ix2 (i 0) d) * a (ix2 (i 1) d)

/-- An entry of `pairDots` only reads row `i 0` of `x` and row `i 1` of `a`. -/
theorem pairDots_apply (x : (⟨2, ![16384, 1024]⟩ : Shape).Idx → EReal) (a : (⟨2, ![2048, 1024]⟩ : Shape).Idx → EReal)
    (i : (⟨2, ![16384, 2048]⟩ : Shape).Idx) :
    pairDots x a i = ∑ d : Fin 1024, x (ix2 (i 0) d) * a (ix2 (i 1) d) := rfl

end Cert.Cosine

end
-- ==== Proof.BlockProduct.lean ====
/-
  One grid point's arithmetic, read at an index.

  At a grid point the kernel body holds a block `x0` of 2048 rows of the first operand and a block `x1` of 1024 rows of
  the second, both with all 1024 columns, and stores the matrix product of `x0` with the transpose of `x1` accumulated
  into zero. Read at the ideal instance, entry (p, q) of what it stores is the dot product of row p of `x0` with row q of
  `x1`: the two shape casts of the body are casts of a shape to itself, the accumulator is the zero word, and the
  contraction runs over the single shared axis of 1024 columns.

  `block_entry` then says: if row `j 0` of `x0` is row `i 0` of a matrix `A0` and row `j 1` of `x1` is row `i 1` of a
  matrix `A1`, the stored entry `j` is entry `i` of `pairDots A0 A1`.
-/
import proofs.«121632_j53472342835384_1_alg».proof.Proof.Gen.KernelIdeal.Skeleton
import proofs.«121632_j53472342835384_1_alg».proof.Proof.PairDots
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's index at output index `i` keeps `i`'s row coordinate. -/
theorem lhs_row (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl

/-- The right operand's row coordinate at output index `i` is `i`'s column coordinate. -/
theorem rhs_row (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl

/-- Entry (p, q) of what a grid point stores is the dot product of row p of its first block with row q of its second. -/
theorem stored_apply (x0 : FVec Ideal S2048x1024 .bf16) (x1 : FVec Ideal S1024x1024 .bf16) (p : Fin 2048) (q : Fin 1024) :
    k0_pay1 (F := Ideal) x0 x1 (ix2 p q) = ∑ d : Fin 1024, x0 (ix2 p d) * x1 (ix2 q d) := by
  unfold k0_pay1
  rw [shapeCast_self, shapeCast_self]
  refine (Ideal.matmul_constant_zero_apply dot_S2048x1024_S1024x1024_S2048x1024_1_1_0_0_n_n none x0 x1 (ix2 p q)).trans ?_
  rw [← Equiv.sum_comp (contrEquiv1 dot_S2048x1024_S1024x1024_S2048x1024_1_1_0_0_n_n 1024 rfl rfl).symm]
  refine Finset.sum_congr rfl fun d _ => ?_
  have hd := contrEquiv1_symm_val dot_S2048x1024_S1024x1024_S2048x1024_1_1_0_0_n_n 1024 rfl rfl d
  have el : dot_S2048x1024_S1024x1024_S2048x1024_1_1_0_0_n_n.lhsIdx (ix2 p q)
      ((contrEquiv1 dot_S2048x1024_S1024x1024_S2048x1024_1_1_0_0_n_n 1024 rfl rfl).symm d) = ix2 p d :=
    funext fun a => Fin.ext (by
      match a with
      | ⟨0, _⟩ => exact lhs_row _ _
      | ⟨1, _⟩ => exact (dot_S2048x1024_S1024x1024_S2048x1024_1_1_0_0_n_n.lhsIdx_val_of_single rfl _ _).trans hd)
  have er : dot_S2048x1024_S1024x1024_S2048x1024_1_1_0_0_n_n.rhsIdx (ix2 p q)
      ((contrEquiv1 dot_S2048x1024_S1024x1024_S2048x1024_1_1_0_0_n_n 1024 rfl rfl).symm d) = ix2 q d :=
    funext fun a => Fin.ext (by
      match a with
      | ⟨0, _⟩ => exact rhs_row _ _
      | ⟨1, _⟩ => exact (dot_S2048x1024_S1024x1024_S2048x1024_1_1_0_0_n_n.rhsIdx_val_of_single rfl _ _).trans hd)
  rw [el, er]

/-- A stored entry as an entry of `pairDots`: when the rows it reads are rows of two whole matrices. -/
theorem block_entry (x0 : FVec Ideal S2048x1024 .bf16) (x1 : FVec Ideal S1024x1024 .bf16)
    (A0 : S16384x1024.Idx → EReal) (A1 : S2048x1024.Idx → EReal) (j : S2048x1024.Idx) (i : S16384x2048.Idx)
    (h0 : ∀ d : Fin 1024, x0 (ix2 (j 0) d) = A0 (ix2 (i 0) d))
    (h1 : ∀ d : Fin 1024, x1 (ix2 (j 1) d) = A1 (ix2 (i 1) d)) :
    k0_pay1 (F := Ideal) x0 x1 j = Cert.Cosine.pairDots A0 A1 i :=
  calc k0_pay1 (F := Ideal) x0 x1 j
      = k0_pay1 (F := Ideal) x0 x1 (ix2 (j 0) (j 1)) := congrArg (k0_pay1 (F := Ideal) x0 x1) (eq_ix2 j)
    _ = ∑ d : Fin 1024, x0 (ix2 (j 0) d) * x1 (ix2 (j 1) d) := stored_apply x0 x1 (j 0) (j 1)
    _ = ∑ d : Fin 1024, A0 (ix2 (i 0) d) * A1 (ix2 (i 1) d) := Finset.sum_congr rfl fun d _ => by rw [h0 d, h1 d]
    _ = Cert.Cosine.pairDots A0 A1 i := rfl

end Cert.KernelIdeal.BlockProduct

end
-- ==== Proof.WindowBlocks.lean ====
/-
  Where each grid point's blocks sit in the arrays.

  The grid has 8 × 2 points. At a point the output window's block is rows `2048·b0 … 2048·b0 + 2047` and columns
  `1024·b1 … 1024·b1 + 1023` of the 16384 × 2048 result, with (b0, b1) the block's index. The first operand's block at
  the same point is the 2048 rows `2048·b0 …` (all 1024 columns) of the first operand array, and the second operand's
  block is the 1024 rows `1024·b1 …` (all 1024 columns) of the second operand array. So row p of the first block is row
  `2048·b0 + p` of the first array, and row q of the second block is row `1024·b1 + q` of the second.

  The 16 output blocks tile the result: entry (r, s) lies in the block of index (r / 2048, s / 1024).
-/
import proofs.«121632_j53472342835384_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The three index maps, decided over the 16 grid points: the first operand's block row is the output's block row,
    the second operand's block row is the output's block column, both operands take all columns, and the output's
    block index stays inside 8 × 2. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 1 :=
  (by decide +kernel : ∀ t : Fin grid0.N, _)

/-- Every block index of the 8 × 2 box is some grid point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- Row `p` of the first operand's block at point `t` is row `2048·b0 + p` of the first operand array. -/
theorem rows_block (c : Dev nD) (t : Fin cfg0.N) (p : Fin 2048) (d : Fin 1024) (r : Fin 16384)
    (hr : r.val = win0_2.index t (0 : Fin 2) * 2048 + p.val) :
    (iblk m c 0 t : Vec F S2048x1024 .bf16) (ix2 p d) = (V m c main_v8 : S16384x1024.Idx → Elt F .bf16) (ix2 r d) := by
  obtain ⟨e0, e1, -, -, -, -⟩ := idx_facts t
  unfold iblk
  rw [View.read_apply]
  show (V m c main_v8 : S16384x1024.Idx → Elt F .bf16) _ = (V m c main_v8 : S16384x1024.Idx → Elt F .bf16) _
  refine congrArg (V m c main_v8 : S16384x1024.Idx → Elt F .bf16) ?_
  funext a
  apply Fin.ext
  match a with
  | ⟨0, _⟩ => show win0_0.index t (0 : Fin 2) * 2048 + 1 * p.val = r.val; omega
  | ⟨1, _⟩ => show win0_0.index t (1 : Fin 2) * 1024 + 1 * d.val = d.val; omega

/-- Row `q` of the second operand's block at point `t` is row `1024·b1 + q` of the second operand array. -/
theorem cols_block (c : Dev nD) (t : Fin cfg0.N) (q : Fin 1024) (d : Fin 1024) (s : Fin 2048)
    (hs : s.val = win0_2.index t (1 : Fin 2) * 1024 + q.val) :
    (iblk m c 1 t : Vec F S1024x1024 .bf16) (ix2 q d) = (V m c main_v11 : S2048x1024.Idx → Elt F .bf16) (ix2 s d) := by
  obtain ⟨-, -, e2, e3, -, -⟩ := idx_facts t
  unfold iblk
  rw [View.read_apply]
  show (V m c main_v11 : S2048x1024.Idx → Elt F .bf16) _ = (V m c main_v11 : S2048x1024.Idx → Elt F .bf16) _
  refine congrArg (V m c main_v11 : S2048x1024.Idx → Elt F .bf16) ?_
  funext a
  apply Fin.ext
  match a with
  | ⟨0, _⟩ => show win0_1.index t (0 : Fin 2) * 1024 + 1 * q.val = s.val; omega
  | ⟨1, _⟩ => show win0_1.index t (1 : Fin 2) * 1024 + 1 * d.val = d.val; omega

/-- An entry of the result lies in point `t`'s output block iff each coordinate lies in the block's range. -/
theorem mem_blk (t : Fin cfg0.N) (i : S16384x2048.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v12).slice (win0_2.rect t)).set ↔ _
  rw [View.set_slice_whole, Rect.mem_set_unit]
  exact Iff.rfl

/-- The output blocks cover the result: entry (r, s) is in the block of index (r / 2048, s / 1024). -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

end Cert.KernelIdeal.Blocks

end
-- ==== Proof.Operands.lean ====
/-
  The two arrays the matrix product reads, as the region finds them.

  Before the product the program normalizes each argument row by row: it squares the entries, sums each row, takes the
  square root (the row's Euclidean norm), replaces it by the fixed small constant where the norm is smaller, and divides
  the row by the result. It then narrows the quotient to the 16-bit format the matrix unit reads. `unitRows` and
  `unitRowsB` name the normalization of the 16384-row and of the 2048-row argument as one function each; the arrays the
  two operand windows read are these, narrowed.
-/
import proofs.«121632_j53472342835384_1_alg».proof.Proof.Gen.KernelIdeal.Frame
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.StableHlo

variable {F : FTy → Type} [FloatOps F]

/-- Each of the 16384 rows divided by the larger of its Euclidean norm and the small constant. -/
def unitRows (x : FVec F S16384x1024 .f32) : FVec F S16384x1024 .f32 :=
  Host.divf x (broadcastInDim S16384x1024 ![0, 1] bcast_S16384x1_S16384x1024_0_1
    (maximumf (Host.sqrt (broadcastInDim S16384x1 ![0] bcast_S16384_S16384x1_0
        (Host.reduceAdd (mulf x x) (constant (F := F) S_ .f32 0x00000000#32) reducesTo_S16384x1024_S16384_d1 h_S_)))
      (broadcastInDim S16384x1 ![] bcast_S_S16384x1 (constant (F := F) S_ .f32 0x322BCC77#32))))

/-- Each of the 2048 rows divided by the larger of its Euclidean norm and the small constant. -/
def unitRowsB (x : FVec F S2048x1024 .f32) : FVec F S2048x1024 .f32 :=
  Host.divf x (broadcastInDim S2048x1024 ![0, 1] bcast_S2048x1_S2048x1024_0_1
    (maximumf (Host.sqrt (broadcastInDim S2048x1 ![0] bcast_S2048_S2048x1_0
        (Host.reduceAdd (mulf x x) (constant (F := F) S_ .f32 0x00000000#32) reducesTo_S2048x1024_S2048_d1 h_S_)))
      (broadcastInDim S2048x1 ![] bcast_S_S2048x1 (constant (F := F) S_ .f32 0x322BCC77#32))))

variable (m : (ℓ : Loc nD τ sig) → Buf (Elt F) ℓ)

/-- The first operand window's array: the first argument, rows normalized, narrowed. -/
theorem first_operand (c : Dev nD) :
    (V m c main_v8 : S16384x1024.Idx → Elt F .bf16)
      = truncf .bf16 (unitRows (F := F) (m ((c : Thread nD τ).loc main_arg0))) bitsLt_bf16_f32 := by
  dsimp only [V]
  simp only [hostOps0, hostOps0_1, hostOps0_2, hostOps0_3, List.flatten_cons, List.flatten_nil, List.append_nil,
    List.cons_append, List.nil_append]
  after_results
  rfl

/-- The second operand window's array: the second argument, rows normalized, narrowed. -/
theorem second_operand (c : Dev nD) :
    (V m c main_v11 : S2048x1024.Idx → Elt F .bf16)
      = truncf .bf16 (unitRowsB (F := F) (m ((c : Thread nD τ).loc main_arg1))) bitsLt_bf16_f32 := by
  dsimp only [V]
  simp only [hostOps0, hostOps0_1, hostOps0_2, hostOps0_3, List.flatten_cons, List.flatten_nil, List.append_nil,
    List.cons_append, List.nil_append]
  after_results
  rfl

end Cert.KernelIdeal.Operands

end
-- ==== Proof.KernelArray.lean ====
/-
  The kernel's result array after the run.

  What a grid point writes back is, entry by entry, a dot product of a row of its first block with a row of its second
  block; those rows are rows of the two operand arrays at the offsets of the point's block index, so the block it
  writes is that block of `pairDots` of the two operand arrays. The 16 blocks tile the result array, which therefore
  ends holding `pairDots` of the operand arrays. The operand arrays are the two arguments with their rows normalized,
  narrowed to the matrix unit's 16-bit format; on extended reals the narrowing is the identity, so the result is
  `pairDots` of the two normalized arguments.
-/
import proofs.«121632_j53472342835384_1_alg».proof.Proof.Gen.KernelIdeal.Value
import proofs.«121632_j53472342835384_1_alg».proof.Proof.BlockProduct
import proofs.«121632_j53472342835384_1_alg».proof.Proof.WindowBlocks
import proofs.«121632_j53472342835384_1_alg».proof.Proof.Operands

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What point `t` writes back is block `t` of the pairwise dot products of the two operand arrays. -/
theorem flushed_eq (c : Dev nD) (t : Fin cfg0.N) :
    (dats m 0 c).flushed 2 t = ((cfg0.win 2).blk t).view.read (Elt Ideal)
      (Cert.Cosine.pairDots (V m c main_v8) (V m c main_v11)) := by
  rw [Cert.KernelIdeal.Value.flushed2]
  unfold out0_2
  rw [View.canon_unit_zero hz]
  simp only [View.ld_unit_zero (S := S2048x1024) hz, View.ld_unit_zero (S := S1024x1024) hz]
  funext j
  show k0_pay1 (F := Ideal) (iblk m c 0 t) (iblk m c 1 t) j
    = Cert.Cosine.pairDots (V m c main_v8) (V m c main_v11) (((cfg0.win 2).blk t).view.emb j)
  refine BlockProduct.block_entry (iblk m c 0 t) (iblk m c 1 t) (V m c main_v8) (V m c main_v11) j
    (((cfg0.win 2).blk t).view.emb j) (fun d => ?_) (fun d => ?_)
  · exact Blocks.rows_block m c t (j 0) d ((((cfg0.win 2).blk t).view.emb j) 0)
      (by show win0_2.index t (0 : Fin 2) * 2048 + 1 * (j 0).val = _; omega)
  · exact Blocks.cols_block m c t (j 1) d ((((cfg0.win 2).blk t).view.emb j) 1)
      (by show win0_2.index t (1 : Fin 2) * 1024 + 1 * (j 1).val = _; omega)

/-- On extended reals, narrowing an array to the 16-bit format changes nothing. -/
theorem narrow_id {s : Shape} (x : FVec Ideal s .f32) (h : FTy.bf16.bits < FTy.f32.bits) :
    (truncf .bf16 x h : FVec Ideal s .bf16) = x :=
  funext fun i => truncf_apply x h i

/-- The result array ends holding the pairwise dot products of the two normalized arguments. -/
theorem final (c : Dev nD) : (dats m 0 c).arrAt 2 cfg0.N
    = Cert.Cosine.pairDots (Operands.unitRows (F := Ideal) (m ((c : Thread nD τ).loc main_arg0)))
        (Operands.unitRowsB (F := Ideal) (m ((c : Thread nD τ).loc main_arg1))) := by
  have h := (dats m 0 c).arrAt_eq_of_cover 2 (Cert.Cosine.pairDots (V m c main_v8) (V m c main_v11))
    (fun t _ => flushed_eq m c t) Blocks.covered
  have e0 : (V m c main_v8 : S16384x1024.Idx → Elt Ideal .bf16)
      = Operands.unitRows (F := Ideal) (m ((c : Thread nD τ).loc main_arg0)) :=
    (Operands.first_operand m c).trans (narrow_id _ _)
  have e1 : (V m c main_v11 : S2048x1024.Idx → Elt Ideal .bf16)
      = Operands.unitRowsB (F := Ideal) (m ((c : Thread nD τ).loc main_arg1)) :=
    (Operands.second_operand m c).trans (narrow_id _ _)
  rw [h, e0, e1]

/-- The run: the result array at the pairwise dot products of the normalized arguments, the arguments unchanged. -/
theorem run : θ_run defs (onTc (τ := τ) (main (F := Ideal))) ⟨m, fun _ => 0, ρ⟩ fun r => ∀ c : Dev nD,
      r.2.mem ((c : Thread nD τ).loc main_v12)
        = Cert.Cosine.pairDots (Operands.unitRows (F := Ideal) (m ((c : Thread nD τ).loc main_arg0)))
            (Operands.unitRowsB (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Result

end
-- ==== Proof.ReferenceDots.lean ====
/-
  The reference's result, read at an index.

  The reference divides each row of its two arguments by the larger of the row's Euclidean norm and a fixed small
  constant, and then contracts the two normalized matrices over their columns with one `dot_general`. At the ideal
  instance that contraction is, entry by entry, the dot product of a row of the first normalized matrix with a row of
  the second: `pairDots` of the two normalized matrices. The normalization itself is not opened here.
-/
import proofs.«121632_j53472342835384_1_alg».proof.Proof.Gen.ReferenceIdeal.Read
import proofs.«121632_j53472342835384_1_alg».proof.Proof.PairDots

noncomputable section

open scoped BigOperators

namespace Cert.ReferenceIdeal.RefValue

open Cert.ReferenceIdeal Cert.ReferenceIdeal.Read Idealize.ShloMosaic Idealize.ShloMosaic.ValueIdx

/-- The contraction's left index is row `i 0`, column `d`. -/
theorem lidx_eq (i : S16384x2048.Idx) (d : Fin 1024) : lidx_main_v10 i d = ix2 (i 0) d :=
  funext fun a => Fin.ext (by match a with | ⟨0, _⟩ => rfl | ⟨1, _⟩ => rfl)

/-- The contraction's right index is row `i 1`, column `d`. -/
theorem ridx_eq (i : S16384x2048.Idx) (d : Fin 1024) : ridx_main_v10 i d = ix2 (i 1) d :=
  funext fun a => Fin.ext (by match a with | ⟨0, _⟩ => rfl | ⟨1, _⟩ => rfl)

/-- The reference's result is the pairwise dot products of its two normalized matrices. -/
theorem result_eq (x0 : (⟨S16384x1024, .f32⟩ : BufTy).Contents (Elt Ideal)) (x1 : (⟨S2048x1024, .f32⟩ : BufTy).Contents (Elt Ideal)) :
    val_main_v10 (F := Ideal) x0 x1 = Cert.Cosine.pairDots (val_main_v7 (F := Ideal) x0) (val_main_v9 (F := Ideal) x1) := by
  funext i
  rw [val_main_v10_apply, Cert.Cosine.pairDots_apply]
  refine Finset.sum_congr rfl fun d _ => ?_
  rw [lidx_eq, ridx_eq]
  rfl

end Cert.ReferenceIdeal.RefValue

end
-- ==== Proof.lean ====
/-
  Pairwise cosine similarity: a tiled matrix product of row-normalized matrices against one whole contraction.

  Both programs take a 16384 × 1024 matrix and a 2048 × 1024 matrix, divide every row by the larger of its Euclidean norm
  and a fixed small constant, and return the 16384 × 2048 matrix of dot products of the normalized rows. The kernel
  narrows the normalized matrices to a 16-bit format and computes the product block by block on an 8 × 2 grid, each
  block a product of 2048 rows with 1024 rows over all 1024 columns, accumulated into zero; the reference contracts the
  two normalized matrices at once. On extended reals the narrowing is the identity and a block of the product is the
  same finite sums as the whole product restricted to the block, so the results agree entry by entry. No entry needs
  to be finite: the two sides are the same sum of the same products, in the same form.

  The kernel's side is `Cert.KernelIdeal.Result.run`, the reference's `Cert.ReferenceIdeal.RefValue.result_eq` over its
  run; the normalization is one function, spelt the same in both programs (`unitRows_eq`, `unitRowsB_eq`).
  The idealized kernel is the kernel's own text read on extended reals (no operation was rewritten), so the
  idealization claim is trivial.
-/
import proofs.«121632_j53472342835384_1_alg».proof.Defs
import proofs.«121632_j53472342835384_1_alg».proof.Proof.Gen.Kernel
import proofs.«121632_j53472342835384_1_alg».proof.Proof.Gen.Kernel.Skeleton
import proofs.«121632_j53472342835384_1_alg».proof.Proof.Gen.Kernel.Launch
import proofs.«121632_j53472342835384_1_alg».proof.Proof.Gen.Kernel.Points
import proofs.«121632_j53472342835384_1_alg».proof.Proof.Gen.Kernel.Frame
import proofs.«121632_j53472342835384_1_alg».proof.Proof.Gen.KernelIdeal
import proofs.«121632_j53472342835384_1_alg».proof.Proof.Gen.KernelIdeal.Skeleton
import proofs.«121632_j53472342835384_1_alg».proof.Proof.Gen.KernelIdeal.Launch
import proofs.«121632_j53472342835384_1_alg».proof.Proof.Gen.KernelIdeal.Points
import proofs.«121632_j53472342835384_1_alg».proof.Proof.Gen.KernelIdeal.Frame
import proofs.«121632_j53472342835384_1_alg».proof.Proof.Gen.KernelIdeal.Value
import proofs.«121632_j53472342835384_1_alg».proof.Proof.Gen.ReferenceIdeal.Run
import proofs.«121632_j53472342835384_1_alg».proof.Proof.Gen.ReferenceIdeal.Read
import proofs.«121632_j53472342835384_1_alg».proof.Proof.Gen.ReferenceIdeal
import proofs.«121632_j53472342835384_1_alg».proof.Proof.Gen.Pre_finite_inputs
import proofs.«121632_j53472342835384_1_alg».proof.Proof.KernelArray
import proofs.«121632_j53472342835384_1_alg».proof.Proof.ReferenceDots
import Idealize.ShloMosaic.Adequacy
import Idealize.ShloMosaic.Init

noncomputable section

namespace Cert.Proof

open Idealize.ShloMosaic Idealize.SL.Sem

/-- The normalization of the 16384-row argument is the same function in the kernel's program and in the reference. -/
theorem unitRows_eq (x : (⟨2, ![16384, 1024]⟩ : Shape).Idx → EReal) :
    Cert.ReferenceIdeal.Read.val_main_v7 (F := Ideal) x = Cert.KernelIdeal.Operands.unitRows (F := Ideal) x := rfl

/-- The normalization of the 2048-row argument is the same function in the kernel's program and in the reference. -/
theorem unitRowsB_eq (x : (⟨2, ![2048, 1024]⟩ : Shape).Idx → EReal) :
    Cert.ReferenceIdeal.Read.val_main_v9 (F := Ideal) x = Cert.KernelIdeal.Operands.unitRowsB (F := Ideal) x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both runs end with the result at the pairwise dot products of the
    normalized arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2,
    unitRows_eq, unitRowsB_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
